-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x4096 : Shape := ⟨2, ![5000, 4096]⟩
abbrev S5000x4 : Shape := ⟨2, ![5000, 4]⟩
abbrev S81x4096 : Shape := ⟨2, ![81, 4096]⟩
abbrev S81 : Shape := ⟨1, ![81]⟩
abbrev S4x4096 : Shape := ⟨2, ![4, 4096]⟩
abbrev S4 : Shape := ⟨1, ![4]⟩
abbrev S_ : Shape := ⟨0, ![]⟩

class Facts : Prop where
  bcast_S_S5000x4096 : S_.BroadcastsInDim S5000x4096 (![] : Fin 0 → Fin S5000x4096.rank)
  reducesTo_S5000x4096_S_d0_1 : S5000x4096.ReducesTo [0, 1] S_
  h_S_ : 0 < S_.numel
  bcast_S_S5000x4 : S_.BroadcastsInDim S5000x4 (![] : Fin 0 → Fin S5000x4.rank)
  reducesTo_S5000x4_S_d0_1 : S5000x4.ReducesTo [0, 1] S_
  bcast_S_S81x4096 : S_.BroadcastsInDim S81x4096 (![] : Fin 0 → Fin S81x4096.rank)
  reducesTo_S81x4096_S_d0_1 : S81x4096.ReducesTo [0, 1] S_
  bcast_S_S81 : S_.BroadcastsInDim S81 (![] : Fin 0 → Fin S81.rank)
  reducesTo_S81_S_d0 : S81.ReducesTo [0] S_
  bcast_S_S4x4096 : S_.BroadcastsInDim S4x4096 (![] : Fin 0 → Fin S4x4096.rank)
  reducesTo_S4x4096_S_d0_1 : S4x4096.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4x4096 .f32) (main_arg5 : FVec F S4 .f32) (main_v13 : IVec S_ 1) (main_v16 : IVec S81 1) : IVec S_ 1 :=
  let main_c_5 : IVec S_ 1 := constantI S_ 1 1#1
  let main_v17 : IVec S_ 1 := (fun x v => Host.reduce IntOp.andi x v reducesTo_S81_S_d0 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S5000x4096 .f32) (main_arg1 : FVec F S5000x4 .f32) (main_arg2 : FVec F S81x4096 .f32) (main_arg3 : FVec F S81 .f32) (main_arg4 : FVec F S4x4096 .f32) (main_arg5 : FVec F S4 .f32) : IVec S_ 1 :=
  let main_v0 : FVec F S5000x4096 .f32 := Host.absf main_arg0
  let main_cst : FVec F S_ .f32 := constant S_ .f32 0x7F800000#32
  let main_v1 : FVec F S5000x4096 .f32 := broadcastInDim S5000x4096 ![] bcast_S_S5000x4096 main_cst
  let main_v2 : IVec S5000x4096 1 := cmpf .olt main_v0 main_v1
  let main_c : IVec S_ 1 := constantI S_ 1 1#1
  let main_v3 : IVec S_ 1 := (fun x v => Host.reduce IntOp.andi x v reducesTo_S5000x4096_S_d0_1 h_S_) main_v2 main_c
  let main_v4 : FVec F S5000x4 .f32 := Host.absf main_arg1
  let main_cst_0 : FVec F S_ .f32 := constant S_ .f32 0x7F800000#32
  let main_v5 : FVec F S5000x4 .f32 := broadcastInDim S5000x4 ![] bcast_S_S5000x4 main_cst_0
  let main_v6 : IVec S5000x4 1 := cmpf .olt main_v4 main_v5
  let main_c_1 : IVec S_ 1 := constantI S_ 1 1#1
  let main_v7 : IVec S_ 1 := (fun x v => Host.reduce IntOp.andi x v reducesTo_S5000x4_S_d0_1 h_S_) main_v6 main_c_1
  let main_v8 : IVec S_ 1 := andi main_v3 main_v7
  let main_v9 : FVec F S81x4096 .f32 := Host.absf main_arg2
  let main_cst_2 : FVec F S_ .f32 := constant S_ .f32 0x7F800000#32
  let main_v10 : FVec F S81x4096 .f32 := broadcastInDim S81x4096 ![] bcast_S_S81x4096 main_cst_2
  let main_v11 : IVec S81x4096 1 := cmpf .olt main_v9 main_v10
  let main_c_3 : IVec S_ 1 := constantI S_ 1 1#1
  let main_v12 : IVec S_ 1 := (fun x v => Host.reduce IntOp.andi x v reducesTo_S81x4096_S_d0_1 h_S_) main_v11 main_c_3
  let main_v13 : IVec S_ 1 := andi main_v8 main_v12
  let main_v14 : FVec F S81 .f32 := Host.absf main_arg3
  let main_cst_4 : FVec F S_ .f32 := constant S_ .f32 0x7F800000#32
  let main_v15 : FVec F S81 .f32 := broadcastInDim S81 ![] bcast_S_S81 main_cst_4
  let main_v16 : IVec S81 1 := cmpf .olt main_v14 main_v15
  fn_part1 (F := F) main_arg4 main_arg5 main_v13 main_v16
-- ==== Kernel.lean ====
abbrev S5000x4096 : Shape := ⟨2, ![5000, 4096]⟩
abbrev S5000x4 : Shape := ⟨2, ![5000, 4]⟩
abbrev S81x4096 : Shape := ⟨2, ![81, 4096]⟩
abbrev S81 : Shape := ⟨1, ![81]⟩
abbrev S4x4096 : Shape := ⟨2, ![4, 4096]⟩
abbrev S4 : Shape := ⟨1, ![4]⟩
abbrev S85x4096 : Shape := ⟨2, ![85, 4096]⟩
abbrev S4096x85 : Shape := ⟨2, ![4096, 85]⟩
abbrev S85 : Shape := ⟨1, ![85]⟩
abbrev S1x85 : Shape := ⟨2, ![1, 85]⟩
abbrev S5000x81 : Shape := ⟨2, ![5000, 81]⟩
abbrev S1000x4096 : Shape := ⟨2, ![1000, 4096]⟩
abbrev S1000x4 : Shape := ⟨2, ![1000, 4]⟩
abbrev S1000x81 : Shape := ⟨2, ![1000, 81]⟩
abbrev S1000x85 : Shape := ⟨2, ![1000, 85]⟩
abbrev S1000x1 : Shape := ⟨2, ![1000, 1]⟩

abbrev nBuf : Space → Nat
  | .hbm => 12
  | .vmem => 10
  | .smem => 0
  | _ => 0

abbrev bufTy : (tb : Table) → Fin (tcTables nBuf tb) → BufTy
  | .hbm, ⟨0, _⟩ => ⟨S5000x4096, .f32⟩
  | .hbm, ⟨1, _⟩ => ⟨S5000x4, .f32⟩
  | .hbm, ⟨2, _⟩ => ⟨S81x4096, .f32⟩
  | .hbm, ⟨3, _⟩ => ⟨S81, .f32⟩
  | .hbm, ⟨4, _⟩ => ⟨S4x4096, .f32⟩
  | .hbm, ⟨5, _⟩ => ⟨S4, .f32⟩
  | .hbm, ⟨6, _⟩ => ⟨S85x4096, .f32⟩
  | .hbm, ⟨7, _⟩ => ⟨S4096x85, .f32⟩
  | .hbm, ⟨8, _⟩ => ⟨S85, .f32⟩
  | .hbm, ⟨9, _⟩ => ⟨S1x85, .f32⟩
  | .hbm, ⟨10, _⟩ => ⟨S5000x81, .f32⟩
  | .hbm, ⟨11, _⟩ => ⟨S5000x4, .f32⟩
  | .local _ .vmem, ⟨0, _⟩ => ⟨S1000x4096, .f32⟩
  | .local _ .vmem, ⟨1, _⟩ => ⟨S1000x4096, .f32⟩
  | .local _ .vmem, ⟨2, _⟩ => ⟨S1000x4, .f32⟩
  | .local _ .vmem, ⟨3, _⟩ => ⟨S1000x4, .f32⟩
  | .local _ .vmem, ⟨4, _⟩ => ⟨S4096x85, .f32⟩
  | .local _ .vmem, ⟨5, _⟩ => ⟨S1x85, .f32⟩
  | .local _ .vmem, ⟨6, _⟩ => ⟨S1000x81, .f32⟩
  | .local _ .vmem, ⟨7, _⟩ => ⟨S1000x81, .f32⟩
  | .local _ .vmem, ⟨8, _⟩ => ⟨S1000x4, .f32⟩
  | .local _ .vmem, ⟨9, _⟩ => ⟨S1000x4, .f32⟩
  | _, _ => ⟨S5000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x85 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x81 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S81x4096_S4x4096_S85x4096_d0 : Shape.Concatenates [S81x4096, S4x4096] S85x4096 0
  transposes_S85x4096_S4096x85_1_0 : S85x4096.Transposes [1, 0] S4096x85
  concatenates_S81_S4_S85_d0 : Shape.Concatenates [S81, S4] S85 0
  shapeCasts_S85_S1x85 : S85.ShapeCasts S1x85
  inb_S1000x4096_S1000x4096_0_0 : ∀ a, (![0, 0] : Fin 2 → Nat) a + S1000x4096.size a ≤ S1000x4096.size a
  h_S1000x4096 : 0 < S1000x4096.numel
  bitsLt_bf16_f32 : FTy.bits .bf16 < FTy.bits .f32
  inb_S4096x85_S4096x85_0_0 : ∀ a, (![0, 0] : Fin 2 → Nat) a + S4096x85.size a ≤ S4096x85.size a
  h_S4096x85 : 0 < S4096x85.numel
  shapeCasts_S4096x85_S4096x85 : S4096x85.ShapeCasts S4096x85
  inb_S1x85_S1x85_0_0 : ∀ a, (![0, 0] : Fin 2 → Nat) a + S1x85.size a ≤ S1x85.size a
  h_S1x85 : 0 < S1x85.numel
  shapeCasts_S1x85_S1x85 : S1x85.ShapeCasts S1x85
  broadcasts_S1x85_S1000x85 : S1x85.Broadcasts S1000x85
  slices_S1000x85_o0_0_S1000x81 : S1000x85.Slices ![0, 0] S1000x81
  inb_S1000x81_S1000x81_0_0 : ∀ a, (![0, 0] : Fin 2 → Nat) a + S1000x81.size a ≤ S1000x81.size a
  h_S1000x81 : 0 < S1000x81.numel
  slices_S1000x85_o0_81_S1000x4 : S1000x85.Slices ![0, 81] S1000x4
  inb_S1000x4_S1000x4_0_0 : ∀ a, (![0, 0] : Fin 2 → Nat) a + S1000x4.size a ≤ S1000x4.size a
  h_S1000x4 : 0 < S1000x4.numel
  slices_S1000x4_o0_0_S1000x1 : S1000x4.Slices ![0, 0] S1000x1
  slices_S1000x4_o0_1_S1000x1 : S1000x4.Slices ![0, 1] S1000x1
  slices_S1000x4_o0_2_S1000x1 : S1000x4.Slices ![0, 2] S1000x1
  slices_S1000x4_o0_3_S1000x1 : S1000x4.Slices ![0, 3] S1000x1
  concatenates_S1000x1_S1000x1_S1000x1_S1000x1_S1000x4_d1 : Shape.Concatenates [S1000x1, S1000x1, S1000x1, S1000x1] S1000x4 1
  dot_S1000x4096_S4096x85_S1000x85_1_0_0_1_n_n_wf : DotDims.WF S1000x4096 S4096x85 S1000x85 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4096.size a ≤ S5000x4096.size a
  hwx0_0 : ∀ i : grid0.Coords, EltTy.bits .f32 = 32 ∨ (Rect.block (s := S5000x4096) S1000x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4.size a ≤ S5000x4.size a
  hwx0_1 : ∀ i : grid0.Coords, EltTy.bits .f32 = 32 ∨ (Rect.block (s := S5000x4) S1000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x85.size a ≤ S4096x85.size a
  hwx0_2 : ∀ i : grid0.Coords, EltTy.bits .f32 = 32 ∨ (Rect.block (s := S4096x85) S4096x85.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x85.size a ≤ S1x85.size a
  hwx0_3 : ∀ i : grid0.Coords, EltTy.bits .f32 = 32 ∨ (Rect.block (s := S1x85) S1x85.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x81.size a ≤ S5000x81.size a
  hwx0_4 : ∀ i : grid0.Coords, EltTy.bits .f32 = 32 ∨ (Rect.block (s := S5000x81) S1000x81.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x4.size a ≤ S5000x4.size a
  hwx0_5 : ∀ i : grid0.Coords, EltTy.bits .f32 = 32 ∨ (Rect.block (s := S5000x4) S1000x4.size (cc0_transform_5 i) (hinb0_5 i)).WholeWords (EltTy.packing .f32)

variable [Facts₀]

def dot_S1000x4096_S4096x85_S1000x85_1_0_0_1_n_n : DotDims S1000x4096 S4096x85 S1000x85 where
  lhsContracting := [1]
  rhsContracting := [0]
  lhsNonContracting := [0]
  rhsNonContracting := [1]
  lhsBatch := []
  rhsBatch := []
  wf := dot_S1000x4096_S4096x85_S1000x85_1_0_0_1_n_n_wf

abbrev win0_0 : Pipeline.Window sig grid0 :=
  Pipeline.Window.ofSpec (Memref.whole main_arg0) S1000x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x85.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x85.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1000x81.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1000x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S5000x4096 : Shape := ⟨2, ![5000, 4096]⟩
abbrev S5000x4 : Shape := ⟨2, ![5000, 4]⟩
abbrev S81x4096 : Shape := ⟨2, ![81, 4096]⟩
abbrev S81 : Shape := ⟨1, ![81]⟩
abbrev S4x4096 : Shape := ⟨2, ![4, 4096]⟩
abbrev S4 : Shape := ⟨1, ![4]⟩
abbrev S4096x81 : Shape := ⟨2, ![4096, 81]⟩
abbrev S5000x81 : Shape := ⟨2, ![5000, 81]⟩
abbrev S1x81 : Shape := ⟨2, ![1, 81]⟩
abbrev S4096x4 : Shape := ⟨2, ![4096, 4]⟩
abbrev S1x4 : Shape := ⟨2, ![1, 4]⟩
abbrev S5000x1 : Shape := ⟨2, ![5000, 1]⟩
abbrev S5000 : Shape := ⟨1, ![5000]⟩

abbrev nBuf : Space → Nat
  | .hbm => 49
  | .vmem => 0
  | .smem => 0
  | _ => 0

abbrev bufTy : (tb : Table) → Fin (tcTables nBuf tb) → BufTy
  | .hbm, ⟨0, _⟩ => ⟨S5000x4096, .f32⟩
  | .hbm, ⟨1, _⟩ => ⟨S5000x4, .f32⟩
  | .hbm, ⟨2, _⟩ => ⟨S81x4096, .f32⟩
  | .hbm, ⟨3, _⟩ => ⟨S81, .f32⟩
  | .hbm, ⟨4, _⟩ => ⟨S4x4096, .f32⟩
  | .hbm, ⟨5, _⟩ => ⟨S4, .f32⟩
  | .hbm, ⟨6, _⟩ => ⟨S4096x81, .f32⟩
  | .hbm, ⟨7, _⟩ => ⟨S5000x81, .f32⟩
  | .hbm, ⟨8, _⟩ => ⟨S1x81, .f32⟩
  | .hbm, ⟨9, _⟩ => ⟨S5000x81, .f32⟩
  | .hbm, ⟨10, _⟩ => ⟨S5000x81, .f32⟩
  | .hbm, ⟨11, _⟩ => ⟨S4096x4, .f32⟩
  | .hbm, ⟨12, _⟩ => ⟨S5000x4, .f32⟩
  | .hbm, ⟨13, _⟩ => ⟨S1x4, .f32⟩
  | .hbm, ⟨14, _⟩ => ⟨S5000x4, .f32⟩
  | .hbm, ⟨15, _⟩ => ⟨S5000x4, .f32⟩
  | .hbm, ⟨16, _⟩ => ⟨S5000x1, .f32⟩
  | .hbm, ⟨17, _⟩ => ⟨S5000, .f32⟩
  | .hbm, ⟨18, _⟩ => ⟨S5000x1, .f32⟩
  | .hbm, ⟨19, _⟩ => ⟨S5000, .f32⟩
  | .hbm, ⟨20, _⟩ => ⟨S5000, .f32⟩
  | .hbm, ⟨21, _⟩ => ⟨S5000x1, .f32⟩
  | .hbm, ⟨22, _⟩ => ⟨S5000, .f32⟩
  | .hbm, ⟨23, _⟩ => ⟨S5000, .f32⟩
  | .hbm, ⟨24, _⟩ => ⟨S5000x1, .f32⟩
  | .hbm, ⟨25, _⟩ => ⟨S5000, .f32⟩
  | .hbm, ⟨26, _⟩ => ⟨S5000x1, .f32⟩
  | .hbm, ⟨27, _⟩ => ⟨S5000, .f32⟩
  | .hbm, ⟨28, _⟩ => ⟨S5000, .f32⟩
  | .hbm, ⟨29, _⟩ => ⟨S5000x1, .f32⟩
  | .hbm, ⟨30, _⟩ => ⟨S5000, .f32⟩
  | .hbm, ⟨31, _⟩ => ⟨S5000, .f32⟩
  | .hbm, ⟨32, _⟩ => ⟨S5000x1, .f32⟩
  | .hbm, ⟨33, _⟩ => ⟨S5000, .f32⟩
  | .hbm, ⟨34, _⟩ => ⟨S5000, .f32⟩
  | .hbm, ⟨35, _⟩ => ⟨S5000x1, .f32⟩
  | .hbm, ⟨36, _⟩ => ⟨S5000, .f32⟩
  | .hbm, ⟨37, _⟩ => ⟨S5000, .f32⟩
  | .hbm, ⟨38, _⟩ => ⟨S5000x1, .f32⟩
  | .hbm, ⟨39, _⟩ => ⟨S5000, .f32⟩
  | .hbm, ⟨40, _⟩ => ⟨S5000, .f32⟩
  | .hbm, ⟨41, _⟩ => ⟨S5000x1, .f32⟩
  | .hbm, ⟨42, _⟩ => ⟨S5000, .f32⟩
  | .hbm, ⟨43, _⟩ => ⟨S5000, .f32⟩
  | .hbm, ⟨44, _⟩ => ⟨S5000x1, .f32⟩
  | .hbm, ⟨45, _⟩ => ⟨S5000x1, .f32⟩
  | .hbm, ⟨46, _⟩ => ⟨S5000x1, .f32⟩
  | .hbm, ⟨47, _⟩ => ⟨S5000x1, .f32⟩
  | .hbm, ⟨48, _⟩ => ⟨S5000x4, .f32⟩
  | _, _ => ⟨S5000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]

class Facts₀ : Prop where
  transposes_S81x4096_S4096x81_1_0 : S81x4096.Transposes [1, 0] S4096x81
  bcast_S81_S1x81_1 : S81.BroadcastsInDim S1x81 (![1] : Fin 1 → Fin S1x81.rank)
  bcast_S1x81_S5000x81_0_1 : S1x81.BroadcastsInDim S5000x81 (![0, 1] : Fin 2 → Fin S5000x81.rank)
  transposes_S4x4096_S4096x4_1_0 : S4x4096.Transposes [1, 0] S4096x4
  bcast_S4_S1x4_1 : S4.BroadcastsInDim S1x4 (![1] : Fin 1 → Fin S1x4.rank)
  bcast_S1x4_S5000x4_0_1 : S1x4.BroadcastsInDim S5000x4 (![0, 1] : Fin 2 → Fin S5000x4.rank)
  slices_S5000x4_S5000x1_0_0 : S5000x4.Slices ![0, 0] S5000x1
  shapeCasts_S5000x1_S5000 : S5000x1.ShapeCasts S5000
  slices_S5000x4_S5000x1_0_2 : S5000x4.Slices ![0, 2] S5000x1
  slices_S5000x4_S5000x1_0_1 : S5000x4.Slices ![0, 1] S5000x1
  slices_S5000x4_S5000x1_0_3 : S5000x4.Slices ![0, 3] S5000x1
  bcast_S5000_S5000x1_0 : S5000.BroadcastsInDim S5000x1 (![0] : Fin 1 → Fin S5000x1.rank)
  concatenates_S5000x1_S5000x1_S5000x1_S5000x1_S5000x4_d1 : Shape.Concatenates [S5000x1, S5000x1, S5000x1, S5000x1] S5000x4 1
  dot_S5000x4096_S4096x81_S5000x81_1_0_0_1_n_n_wf : DotDims.WF S5000x4096 S4096x81 S5000x81 [1] [0] [0] [1] [] []
  dot_S5000x4096_S4096x4_S5000x4_1_0_0_1_n_n_wf : DotDims.WF S5000x4096 S4096x4 S5000x4 [1] [0] [0] [1] [] []

variable [Facts₀]

def dot_S5000x4096_S4096x81_S5000x81_1_0_0_1_n_n : DotDims S5000x4096 S4096x81 S5000x81 where
  lhsContracting := [1]
  rhsContracting := [0]
  lhsNonContracting := [0]
  rhsNonContracting := [1]
  lhsBatch := []
  rhsBatch := []
  wf := dot_S5000x4096_S4096x81_S5000x81_1_0_0_1_n_n_wf
def dot_S5000x4096_S4096x4_S5000x4_1_0_0_1_n_n : DotDims S5000x4096 S4096x4 S5000x4 where
  lhsContracting := [1]
  rhsContracting := [0]
  lhsNonContracting := [0]
  rhsNonContracting := [1]
  lhsBatch := []
  rhsBatch := []
  wf := dot_S5000x4096_S4096x4_S5000x4_1_0_0_1_n_n_wf

class Facts : Prop extends Facts₀ where

variable [Facts]
-- ==== Proof.HeadSpec.lean ====
/-
  The detection head as one function of its six argument arrays, over the extended reals.

  For a feature matrix `f` of 5000 rows and 4096 columns, a weight matrix `W` of `C` rows and a bias row `b`,
  the SCORE of row `n` against class `c` is the affine form  (Σ_k f[n,k] · W[c,k]) + b[c].
  The class output is the score against the 81-row classifier; the box output takes the four scores `d₀ … d₃`
  against the 4-row regressor and decodes them against the proposal row `p[n,·] = (x, y, w, h)`:
      ( d₀ · w + x ,  d₁ · h + y ,  exp d₂ · w ,  exp d₂ · h )
  (the third score feeds BOTH exponentials; `d₃` is not read).  Nothing here needs a finite entry: the two
  programs compute these very sums and products, so only re-indexing separates them.
-/
import Idealize.ShloMosaic.PureOps.Ideal
import Idealize.ShloMosaic.Lib.ValueIdx

noncomputable section

open Idealize.ShloMosaic Idealize.ShloMosaic.ValueIdx
open scoped BigOperators

namespace Cert.Head

/-- A matrix of extended reals with literal extents. -/
abbrev Mat (a b : Nat) : Type := (⟨2, ![a, b]⟩ : Shape).Idx → EReal
/-- A row of extended reals with a literal extent. -/
abbrev Row (a : Nat) : Type := (⟨1, ![a]⟩ : Shape).Idx → EReal

/-- Feature row `n` against weight row `c`, plus bias `c`. -/
def score {C : Nat} (f : Mat 5000 4096) (W : Mat C 4096) (b : Row C) (n : Fin 5000) (c : Fin C) : EReal :=
  (∑ k : Fin 4096, f (ix2 n k) * W (ix2 c k)) + b (ix1 c)

/-- The class scores. -/
def clsOut (f : Mat 5000 4096) (W : Mat 81 4096) (b : Row 81) : Mat 5000 81 :=
  fun i => score f W b (i 0) (i 1)

/-- Row `n` of the decoded boxes, column by column. -/
def boxCol (f : Mat 5000 4096) (p : Mat 5000 4) (W : Mat 4 4096) (b : Row 4) (n : Fin 5000) : Fin 4 → EReal := fun j =>
  match j with
  | ⟨0, _⟩ => score f W b n 0 * p (ix2 n 2) + p (ix2 n 0)
  | ⟨1, _⟩ => score f W b n 1 * p (ix2 n 3) + p (ix2 n 1)
  | ⟨2, _⟩ => Ideal.exp (score f W b n 2) * p (ix2 n 2)
  | ⟨3, _⟩ => Ideal.exp (score f W b n 2) * p (ix2 n 3)
  | ⟨_ + 4, h⟩ => absurd h (Nat.not_lt.2 (Nat.le_add_left _ _))

/-- The decoded boxes. -/
def boxOut (f : Mat 5000 4096) (p : Mat 5000 4) (W : Mat 4 4096) (b : Row 4) : Mat 5000 4 :=
  fun i => boxCol f p W b (i 0) (i 1)

theorem clsOut_apply (f : Mat 5000 4096) (W : Mat 81 4096) (b : Row 81) (n : Fin 5000) (c : Fin 81) :
    clsOut f W b (ix2 n c) = score f W b n c := rfl

theorem boxOut_apply (f : Mat 5000 4096) (p : Mat 5000 4) (W : Mat 4 4096) (b : Row 4) (n : Fin 5000) (j : Fin 4) :
    boxOut f p W b (ix2 n j) = boxCol f p W b n j := rfl

end Cert.Head

end
-- ==== Proof.KernelPayload.lean ====
/-
  One tile of the fused head, read entry by entry.

  A tile holds 1000 feature rows `P0`, the whole [4096, 85] weight panel `P1` (classifier columns 0 … 80, regressor
  columns 81 … 84), the [1, 85] bias row `P2` and the tile's 1000 proposal rows `P3`. The body forms
      acc[p, q] = (Σ_k P0[p, k] · P1[k, q]) + P2[0, q]
  (the matrix unit's contraction into a zero accumulator is that sum; the change of float format on the way in is the
  identity on extended reals), stores columns 0 … 80 of `acc` as the class tile, and decodes columns 81 … 84 against the
  proposal row into the box tile.
-/
import proofs.«111709_g46712064311609_cont_8to1_c_116_27_alg».proof.Proof.Gen.KernelIdeal.Value
import proofs.«111709_g46712064311609_cont_8to1_c_116_27_alg».proof.Proof.HeadSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Hand

open Cert.KernelIdeal Cert.KernelIdeal.Gen Cert.KernelIdeal.Value Cert.Head

/-- Column `c` of the classifier as a column of the fused panel. -/
abbrev clsCol (c : Fin 81) : Fin 85 := ⟨c.val, by have := c.isLt; omega⟩
/-- Column `j` of the regressor as a column of the fused panel. -/
abbrev regCol (j : Fin 4) : Fin 85 := ⟨81 + j.val, by have := j.isLt; omega⟩

/-- The box decode of four scores `d` against a proposal row `r = (x, y, w, h)`. -/
def decode (d r : Fin 4 → EReal) : Fin 4 → EReal := fun j =>
  match j with
  | ⟨0, _⟩ => d 0 * r 2 + r 0
  | ⟨1, _⟩ => d 1 * r 3 + r 1
  | ⟨2, _⟩ => Ideal.exp (d 2) * r 2
  | ⟨3, _⟩ => Ideal.exp (d 2) * r 3
  | ⟨_ + 4, h⟩ => absurd h (Nat.not_lt.2 (Nat.le_add_left _ _))

/-- The specification's box row is the decode of the four regressor scores against the proposal row. -/
theorem boxCol_eq_decode (f : Mat 5000 4096) (p : Mat 5000 4) (W : Mat 4 4096) (b : Row 4) (n : Fin 5000) (j : Fin 4) :
    boxCol f p W b n j = decode (fun j' => score f W b n j') (fun j' => p (ix2 n j')) j := by
  match j with
  | ⟨0, _⟩ => rfl
  | ⟨1, _⟩ => rfl
  | ⟨2, _⟩ => rfl
  | ⟨3, _⟩ => rfl
  | ⟨_ + 4, h⟩ => exact absurd h (Nat.not_lt.2 (Nat.le_add_left _ _))

/-! ## The contraction's operand indices -/

theorem lhs_0 (i : S1000x85.Idx) (q : dot_S1000x4096_S4096x85_S1000x85_1_0_0_1_n_n.contr.Idx) :
    (dot_S1000x4096_S4096x85_S1000x85_1_0_0_1_n_n.lhsIdx i q 0).val = (i 0).val := by
  unfold DotDims.lhsIdx
  rw [dif_neg (show ¬(0 : Fin S1000x4096.rank) ∈ dot_S1000x4096_S4096x85_S1000x85_1_0_0_1_n_n.lhsBatch by decide), dif_pos (show (0 : Fin S1000x4096.rank) ∈ dot_S1000x4096_S4096x85_S1000x85_1_0_0_1_n_n.lhsNonContracting by decide)]
  rfl
theorem lhs_1 (i : S1000x85.Idx) (q : dot_S1000x4096_S4096x85_S1000x85_1_0_0_1_n_n.contr.Idx) :
    (dot_S1000x4096_S4096x85_S1000x85_1_0_0_1_n_n.lhsIdx i q 1).val = (q ⟨0, by decide⟩).val :=
  dot_S1000x4096_S4096x85_S1000x85_1_0_0_1_n_n.lhsIdx_val_of_single rfl i q
theorem rhs_0 (i : S1000x85.Idx) (q : dot_S1000x4096_S4096x85_S1000x85_1_0_0_1_n_n.contr.Idx) :
    (dot_S1000x4096_S4096x85_S1000x85_1_0_0_1_n_n.rhsIdx i q 0).val = (q ⟨0, by decide⟩).val :=
  dot_S1000x4096_S4096x85_S1000x85_1_0_0_1_n_n.rhsIdx_val_of_single rfl i q
theorem rhs_1 (i : S1000x85.Idx) (q : dot_S1000x4096_S4096x85_S1000x85_1_0_0_1_n_n.contr.Idx) :
    (dot_S1000x4096_S4096x85_S1000x85_1_0_0_1_n_n.rhsIdx i q 1).val = (i 1).val := by
  unfold DotDims.rhsIdx
  rw [dif_neg (show ¬(1 : Fin S4096x85.rank) ∈ dot_S1000x4096_S4096x85_S1000x85_1_0_0_1_n_n.rhsBatch by decide), dif_pos (show (1 : Fin S4096x85.rank) ∈ dot_S1000x4096_S4096x85_S1000x85_1_0_0_1_n_n.rhsNonContracting by decide)]
  rfl

/-! ## The accumulator at an entry -/

/-- `acc[p, q] = (Σ_k P0[p, k] · P1[k, q]) + P2[0, q]`. -/
theorem acc_apply (P0 : Vec Ideal S1000x4096 .f32) (P1 : Vec Ideal S4096x85 .f32) (P2 : Vec Ideal S1x85 .f32) (p : Fin 1000) (q : Fin 85) :
    k0_pay1 (F := Ideal) P0 P1 P2 (ix2 p q) = (∑ k : Fin 4096, P0 (ix2 p k) * P1 (ix2 k q)) + P2 (ix2 (0 : Fin 1) q) := by
  unfold k0_pay1
  refine (addf_apply _ _ _).trans ?_
  refine congrArg₂ (· + ·) ?_ ?_
  · refine (Ideal.matmul_constant_zero_apply dot_S1000x4096_S4096x85_S1000x85_1_0_0_1_n_n none _ _ (ix2 p q)).trans ?_
    rw [← Equiv.sum_comp (contrEquiv1 dot_S1000x4096_S4096x85_S1000x85_1_0_0_1_n_n 4096 rfl rfl).symm]
    refine Finset.sum_congr rfl fun k _ => ?_
    have hk := contrEquiv1_symm_val dot_S1000x4096_S4096x85_S1000x85_1_0_0_1_n_n 4096 rfl rfl k
    have el : dot_S1000x4096_S4096x85_S1000x85_1_0_0_1_n_n.lhsIdx (ix2 p q) ((contrEquiv1 dot_S1000x4096_S4096x85_S1000x85_1_0_0_1_n_n 4096 rfl rfl).symm k) = ix2 p k := funext fun a => Fin.ext (by
      match a with
      | ⟨0, _⟩ => exact lhs_0 _ _
      | ⟨1, _⟩ => exact (lhs_1 _ _).trans hk)
    have er : dot_S1000x4096_S4096x85_S1000x85_1_0_0_1_n_n.rhsIdx (ix2 p q) ((contrEquiv1 dot_S1000x4096_S4096x85_S1000x85_1_0_0_1_n_n 4096 rfl rfl).symm k) = ix2 k q := funext fun a => Fin.ext (by
      match a with
      | ⟨0, _⟩ => exact (rhs_0 _ _).trans hk
      | ⟨1, _⟩ => exact rhs_1 _ _)
    rw [el, er]
    show P0 (ix2 p k) * shapeCast S4096x85 P1 shapeCasts_S4096x85_S4096x85 (ix2 k q) = _
    rw [shapeCast_self]
  · refine (broadcastTo_1b_ab_apply _ _ p q).trans ?_
    rw [shapeCast_self]

/-! ## The class tile -/

/-- The class tile at `(p, c)` is the accumulator at column `c`. -/
theorem clsTile_apply (P0 : Vec Ideal S1000x4096 .f32) (P1 : Vec Ideal S4096x85 .f32) (P2 : Vec Ideal S1x85 .f32) (p : Fin 1000) (c : Fin 81) :
    E4 (F := Ideal) P0 P1 P2 (ix2 p c) = (∑ k : Fin 4096, P0 (ix2 p k) * P1 (ix2 k (clsCol c))) + P2 (ix2 (0 : Fin 1) (clsCol c)) := by
  have e : ix4_0 (ix2 p c) = ix2 p (clsCol c) := funext fun a => Fin.ext (by
    match a with
    | ⟨0, _⟩ => rfl
    | ⟨1, _⟩ => rfl)
  show k0_pay1 P0 P1 P2 (ix4_0 (ix2 p c)) = _
  rw [e]
  exact acc_apply P0 P1 P2 p (clsCol c)

/-! ## The box tile -/

/-- Column `j` of the regressor part of the accumulator, at row `p` (`o` is `j` as a slice offset). -/
theorem regSlice_apply (P0 : Vec Ideal S1000x4096 .f32) (P1 : Vec Ideal S4096x85 .f32) (P2 : Vec Ideal S1x85 .f32) (p : Fin 1000) (o : Nat) (j : Fin 4)
    (ho : j.val = o) (h : S1000x4.Slices ![0, o] S1000x1) :
    extractStridedSlice S1000x1 ![0, o] (extractStridedSlice S1000x4 ![0, 81] (k0_pay1 (F := Ideal) P0 P1 P2) slices_S1000x85_o0_81_S1000x4) h (ix2 p (0 : Fin 1))
      = k0_pay1 (F := Ideal) P0 P1 P2 (ix2 p (regCol j)) := by
  refine (slice2_axis1_apply o _ h p (0 : Fin 1) j (by rw [ho]; rfl)).trans ?_
  exact slice2_axis1_apply 81 _ slices_S1000x85_o0_81_S1000x4 p j (regCol j) rfl

/-- Column `j` of the proposal tile, at row `p`. -/
theorem propSlice_apply (P3 : Vec Ideal S1000x4 .f32) (p : Fin 1000) (o : Nat) (j : Fin 4) (ho : j.val = o) (h : S1000x4.Slices ![0, o] S1000x1) :
    extractStridedSlice S1000x1 ![0, o] P3 h (ix2 p (0 : Fin 1)) = P3 (ix2 p j) :=
  slice2_axis1_apply o _ h p (0 : Fin 1) j (by rw [ho]; rfl)

/-- The box tile at `(p, j)` is the decode of the accumulator's regressor columns against the proposal row. -/
theorem boxTile_apply (P0 : Vec Ideal S1000x4096 .f32) (P1 : Vec Ideal S4096x85 .f32) (P2 : Vec Ideal S1x85 .f32) (P3 : Vec Ideal S1000x4 .f32) (p : Fin 1000) (j : Fin 4) :
    E5 (F := Ideal) P0 P1 P2 P3 (ix2 p j)
      = decode (fun j' => k0_pay1 (F := Ideal) P0 P1 P2 (ix2 p (regCol j'))) (fun j' => P3 (ix2 p j')) j := by
  have e : ix5_0 (ix2 p j) = ix2 p (0 : Fin 1) := funext fun a => Fin.ext (by
    match a with
    | ⟨0, _⟩ => rfl
    | ⟨1, _⟩ => rfl)
  have es : csel5_0 (ix2 p j) = j := Fin.ext rfl
  show Cat5_0 P0 P1 P2 P3 (csel5_0 (ix2 p j)) (ix5_0 (ix2 p j)) = _
  rw [e, es]
  match j with
  | ⟨0, _⟩ =>
    exact congrArg₂ (· + ·) (congrArg₂ (· * ·) (regSlice_apply P0 P1 P2 p 0 0 rfl slices_S1000x4_o0_0_S1000x1)
      (propSlice_apply P3 p 2 2 rfl slices_S1000x4_o0_2_S1000x1)) (propSlice_apply P3 p 0 0 rfl slices_S1000x4_o0_0_S1000x1)
  | ⟨1, _⟩ =>
    exact congrArg₂ (· + ·) (congrArg₂ (· * ·) (regSlice_apply P0 P1 P2 p 1 1 rfl slices_S1000x4_o0_1_S1000x1)
      (propSlice_apply P3 p 3 3 rfl slices_S1000x4_o0_3_S1000x1)) (propSlice_apply P3 p 1 1 rfl slices_S1000x4_o0_1_S1000x1)
  | ⟨2, _⟩ =>
    exact congrArg₂ (· * ·) (congrArg Ideal.exp (regSlice_apply P0 P1 P2 p 2 2 rfl slices_S1000x4_o0_2_S1000x1))
      (propSlice_apply P3 p 2 2 rfl slices_S1000x4_o0_2_S1000x1)
  | ⟨3, _⟩ =>
    exact congrArg₂ (· * ·) (congrArg Ideal.exp (regSlice_apply P0 P1 P2 p 2 2 rfl slices_S1000x4_o0_2_S1000x1))
      (propSlice_apply P3 p 3 3 rfl slices_S1000x4_o0_3_S1000x1)
  | ⟨_ + 4, h⟩ => exact absurd h (Nat.not_lt.2 (Nat.le_add_left _ _))

end Cert.KernelIdeal.Hand

end
-- ==== Proof.KernelHost.lean ====
/-
  The two arrays the program prepares before the tiles run.

  The weight PANEL is the transpose of the classifier's 81 rows stacked over the regressor's 4 rows: a [4096, 85] matrix
  whose column `q` is classifier row `q` for `q < 81` and regressor row `q - 81` otherwise. The BIAS ROW is the two
  bias vectors laid end to end as one [1, 85] row, split at the same column.
-/
import proofs.«111709_g46712064311609_cont_8to1_c_116_27_alg».proof.Proof.Gen.KernelIdeal.Frame
import proofs.«111709_g46712064311609_cont_8to1_c_116_27_alg».proof.Proof.HeadSpec
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.ShloMosaic.ValueIdx Idealize.SL.Sem

namespace Cert.KernelIdeal.Hand

open Cert.KernelIdeal Cert.KernelIdeal.Gen Cert.Head

/-- The classifier's rows over the regressor's, transposed. -/
def panel (Wc : Vec Ideal S81x4096 .f32) (Wr : Vec Ideal S4x4096 .f32) : Vec Ideal S4096x85 .f32 :=
  transpose S4096x85 [1, 0] (concatenate S85x4096 0 [⟨S81x4096, Wc⟩, ⟨S4x4096, Wr⟩] concatenates_S81x4096_S4x4096_S85x4096_d0) transposes_S85x4096_S4096x85_1_0

/-- The two bias vectors end to end, as one row. -/
def biasRow (bc : Vec Ideal S81 .f32) (br : Vec Ideal S4 .f32) : Vec Ideal S1x85 .f32 :=
  shapeCast S1x85 (concatenate S85 0 [⟨S81, bc⟩, ⟨S4, br⟩] concatenates_S81_S4_S85_d0) shapeCasts_S85_S1x85

/-- A classifier column of the panel is a classifier row. -/
theorem panel_cls (Wc : Vec Ideal S81x4096 .f32) (Wr : Vec Ideal S4x4096 .f32) (k : Fin 4096) (c : Fin 81) (q : Fin 85) (hq : q.val = c.val) :
    panel Wc Wr (ix2 k q) = Wc (ix2 c k) := by
  unfold panel
  refine (transpose_ix2_apply _ transposes_S85x4096_S4096x85_1_0 k q).trans ?_
  exact concatenate_pair_apply_left (0 : Fin 2) Wc Wr concatenates_S81x4096_S4x4096_S85x4096_d0 (ix2 q k) rfl (ix2 c k)
    (fun b => match b with | ⟨0, _⟩ => hq.symm | ⟨1, _⟩ => rfl)

/-- A regressor column of the panel is a regressor row. -/
theorem panel_reg (Wc : Vec Ideal S81x4096 .f32) (Wr : Vec Ideal S4x4096 .f32) (k : Fin 4096) (j : Fin 4) (q : Fin 85) (hq : q.val = 81 + j.val) :
    panel Wc Wr (ix2 k q) = Wr (ix2 j k) := by
  unfold panel
  refine (transpose_ix2_apply _ transposes_S85x4096_S4096x85_1_0 k q).trans ?_
  refine concatenate_pair_apply_right (0 : Fin 2) Wc Wr concatenates_S81x4096_S4x4096_S85x4096_d0 (ix2 q k) rfl rfl (ix2 j k)
    (fun b hb => match b, hb with | ⟨0, _⟩, hb => absurd rfl hb | ⟨1, _⟩, _ => rfl) ?_
  show j.val + 81 = q.val
  omega

/-- A classifier column of the bias row is a classifier bias. -/
theorem biasRow_cls (bc : Vec Ideal S81 .f32) (br : Vec Ideal S4 .f32) (c : Fin 81) (q : Fin 85) (hq : q.val = c.val) :
    biasRow bc br (ix2 (0 : Fin 1) q) = bc (ix1 c) := by
  unfold biasRow
  refine (shapeCast_a_1a_apply _ shapeCasts_S85_S1x85 (0 : Fin 1) q).trans ?_
  exact concatenate_pair_apply_left (0 : Fin 1) bc br concatenates_S81_S4_S85_d0 (ix1 q) rfl (ix1 c)
    (fun b => match b with | ⟨0, _⟩ => hq.symm)

/-- A regressor column of the bias row is a regressor bias. -/
theorem biasRow_reg (bc : Vec Ideal S81 .f32) (br : Vec Ideal S4 .f32) (j : Fin 4) (q : Fin 85) (hq : q.val = 81 + j.val) :
    biasRow bc br (ix2 (0 : Fin 1) q) = br (ix1 j) := by
  unfold biasRow
  refine (shapeCast_a_1a_apply _ shapeCasts_S85_S1x85 (0 : Fin 1) q).trans ?_
  refine concatenate_pair_apply_right (0 : Fin 1) bc br concatenates_S81_S4_S85_d0 (ix1 q) rfl rfl (ix1 j)
    (fun b hb => match b, hb with | ⟨0, _⟩, hb => absurd rfl hb) ?_
  show j.val + 81 = q.val
  omega

variable (m : (ℓ : Loc nD τ sig) → Buf (Elt Ideal) ℓ)

/-- When the tiles start, the panel's array holds the panel of the two weight arguments. -/
theorem V_panel (c : Dev nD) :
    (V m c main_v1 : Vec Ideal S4096x85 .f32) = panel (m ((c : Thread nD τ).loc main_arg2)) (m ((c : Thread nD τ).loc main_arg4)) := by
  dsimp only [Gen.V, Gen.hostOps0]
  after_results
  rfl

/-- When the tiles start, the bias row's array holds the bias row of the two bias arguments. -/
theorem V_biasRow (c : Dev nD) :
    (V m c main_v3 : Vec Ideal S1x85 .f32) = biasRow (m ((c : Thread nD τ).loc main_arg3)) (m ((c : Thread nD τ).loc main_arg5)) := by
  dsimp only [Gen.V, Gen.hostOps0]
  after_results
  rfl

end Cert.KernelIdeal.Hand

end
-- ==== Proof.KernelBlocks.lean ====
/-
  From tiles to the two result arrays.

  Tile `t` (of five) covers rows `1000·t … 1000·t + 999` of the features, of the proposals and of both results; the weight
  panel and the bias row are the same whole arrays at every tile. So row `p` of tile `t` is array row `1000·t + p`, and
  what tile `t` writes back is rows `1000·t …` of ONE function of the six arguments: the class scores for the first
  result, the decoded boxes for the second. The five tiles' row ranges cover each result array, so each array ends
  holding that function.
-/
import proofs.«111709_g46712064311609_cont_8to1_c_116_27_alg».proof.Proof.Gen.KernelIdeal.Value
import proofs.«111709_g46712064311609_cont_8to1_c_116_27_alg».proof.Proof.HeadSpec
import proofs.«111709_g46712064311609_cont_8to1_c_116_27_alg».proof.Proof.KernelPayload
import proofs.«111709_g46712064311609_cont_8to1_c_116_27_alg».proof.Proof.KernelHost
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.Hand

open Cert.KernelIdeal Cert.KernelIdeal.Gen Cert.KernelIdeal.Value Cert.Head

theorem hz : (![0, 0] : Fin 2 → Nat) = fun _ => 0 := funext fun a => by fin_cases a <;> rfl

/-! ## What one tile's two stores leave, over the tile's inputs as variables -/

/-- The class tile's store at `(p, c)`: the affine form of feature row `p` against panel column `c`. -/
theorem clsStore_apply (x0 : Vec Ideal S1000x4096 .f32) (x1 : Vec Ideal S1000x4 .f32) (x2 : Vec Ideal S4096x85 .f32) (x3 : Vec Ideal S1x85 .f32)
    (p : Fin 1000) (c : Fin 81) :
    out0_4 (F := Ideal) x0 x1 x2 x3 (ix2 p c)
      = (∑ k : Fin 4096, x0 (ix2 p k) * x2 (ix2 k (clsCol c))) + x3 (ix2 (0 : Fin 1) (clsCol c)) := by
  unfold out0_4
  simp only [View.ld_unit_zero (S := S1000x4096) hz, View.ld_unit_zero (S := S4096x85) hz, View.ld_unit_zero (S := S1x85) hz]
  exact (canon4_eq x0 x2 x3 (ix2 p c)).trans (clsTile_apply x0 x2 x3 p c)

/-- The box tile's store at `(p, j)`: the decode of the four regressor forms of feature row `p` against proposal row `p`. -/
theorem boxStore_apply (x0 : Vec Ideal S1000x4096 .f32) (x1 : Vec Ideal S1000x4 .f32) (x2 : Vec Ideal S4096x85 .f32) (x3 : Vec Ideal S1x85 .f32)
    (p : Fin 1000) (j : Fin 4) :
    out0_5 (F := Ideal) x0 x1 x2 x3 (ix2 p j)
      = decode (fun j' => (∑ k : Fin 4096, x0 (ix2 p k) * x2 (ix2 k (regCol j'))) + x3 (ix2 (0 : Fin 1) (regCol j')))
          (fun j' => x1 (ix2 p j')) j := by
  unfold out0_5
  simp only [View.ld_unit_zero (S := S1000x4096) hz, View.ld_unit_zero (S := S4096x85) hz, View.ld_unit_zero (S := S1x85) hz,
    View.ld_unit_zero (S := S1000x4) hz]
  refine (canon5_eq x0 x2 x3 x1 (ix2 p j)).trans ?_
  refine (boxTile_apply x0 x2 x3 x1 p j).trans ?_
  exact congrArg (fun d => decode d (fun j' => x1 (ix2 p j')) j) (funext fun j' => acc_apply x0 x2 x3 p (regCol j'))

/-! ## Where a tile sits in its arrays -/

/-- The block indices of the six windows, decided over the five tiles: the row-tiled windows move to row block `t`, the
    panel and the bias row stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt5 (t : Fin cfg0.N) : t.val < 5 := Nat.lt_of_lt_of_eq t.isLt (show cfg0.N = 5 from N_0)

/-- The array row under row `p` of tile `t`. -/
def rowOf (t : Fin cfg0.N) (p : Fin 1000) : Fin 5000 :=
  ⟨1000 * t.val + p.val, by have := lt5 t; have := p.isLt; omega⟩

/-- Tile `t` of a [5000, 4096] array (the features). -/
theorem blk0_apply (A : Vec Ideal S5000x4096 .f32) (t : Fin cfg0.N) (p : Fin 1000) (k : Fin 4096) :
    ((cfg0.win 0).blk t).view.read (Elt Ideal) A (ix2 p k) = A (ix2 (rowOf t p) k) := by
  obtain ⟨e0, e1, -⟩ := idx_facts t
  show A (((cfg0.win 0).blk t).view.emb (ix2 p k)) = A (ix2 (rowOf t p) k)
  refine congrArg A (funext fun a => Fin.ext ?_)
  match a with
  | ⟨0, _⟩ => show win0_0.index t (0 : Fin 2) * 1000 + 1 * p.val = 1000 * t.val + p.val; omega
  | ⟨1, _⟩ => show win0_0.index t (1 : Fin 2) * 4096 + 1 * k.val = k.val; omega

/-- Tile `t` of a [5000, 4] array read through the proposals' window. -/
theorem blk1_apply (A : Vec Ideal S5000x4 .f32) (t : Fin cfg0.N) (p : Fin 1000) (j : Fin 4) :
    ((cfg0.win 1).blk t).view.read (Elt Ideal) A (ix2 p j) = A (ix2 (rowOf t p) j) := by
  obtain ⟨-, -, e0, e1, -⟩ := idx_facts t
  show A (((cfg0.win 1).blk t).view.emb (ix2 p j)) = A (ix2 (rowOf t p) j)
  refine congrArg A (funext fun a => Fin.ext ?_)
  match a with
  | ⟨0, _⟩ => show win0_1.index t (0 : Fin 2) * 1000 + 1 * p.val = 1000 * t.val + p.val; omega
  | ⟨1, _⟩ => show win0_1.index t (1 : Fin 2) * 4 + 1 * j.val = j.val; omega

/-- The panel's window reads the whole panel at every tile. -/
theorem blk2_apply (A : Vec Ideal S4096x85 .f32) (t : Fin cfg0.N) (k : Fin 4096) (q : Fin 85) :
    ((cfg0.win 2).blk t).view.read (Elt Ideal) A (ix2 k q) = A (ix2 k q) := by
  obtain ⟨-, -, -, -, e0, e1, -⟩ := idx_facts t
  show A (((cfg0.win 2).blk t).view.emb (ix2 k q)) = A (ix2 k q)
  refine congrArg A (funext fun a => Fin.ext ?_)
  match a with
  | ⟨0, _⟩ => show win0_2.index t (0 : Fin 2) * 4096 + 1 * k.val = k.val; omega
  | ⟨1, _⟩ => show win0_2.index t (1 : Fin 2) * 85 + 1 * q.val = q.val; omega

/-- The bias row's window reads the whole row at every tile. -/
theorem blk3_apply (A : Vec Ideal S1x85 .f32) (t : Fin cfg0.N) (u : Fin 1) (q : Fin 85) :
    ((cfg0.win 3).blk t).view.read (Elt Ideal) A (ix2 u q) = A (ix2 u q) := by
  obtain ⟨-, -, -, -, -, -, e0, e1, -⟩ := idx_facts t
  show A (((cfg0.win 3).blk t).view.emb (ix2 u q)) = A (ix2 u q)
  refine congrArg A (funext fun a => Fin.ext ?_)
  match a with
  | ⟨0, _⟩ => show win0_3.index t (0 : Fin 2) * 1 + 1 * u.val = u.val; omega
  | ⟨1, _⟩ => show win0_3.index t (1 : Fin 2) * 85 + 1 * q.val = q.val; omega

/-- Tile `t` of a [5000, 81] array (the class result). -/
theorem blk4_apply (A : Vec Ideal S5000x81 .f32) (t : Fin cfg0.N) (p : Fin 1000) (c : Fin 81) :
    ((cfg0.win 4).blk t).view.read (Elt Ideal) A (ix2 p c) = A (ix2 (rowOf t p) c) := by
  obtain ⟨-, -, -, -, -, -, -, -, e0, e1, -⟩ := idx_facts t
  show A (((cfg0.win 4).blk t).view.emb (ix2 p c)) = A (ix2 (rowOf t p) c)
  refine congrArg A (funext fun a => Fin.ext ?_)
  match a with
  | ⟨0, _⟩ => show win0_4.index t (0 : Fin 2) * 1000 + 1 * p.val = 1000 * t.val + p.val; omega
  | ⟨1, _⟩ => show win0_4.index t (1 : Fin 2) * 81 + 1 * c.val = c.val; omega

/-- Tile `t` of a [5000, 4] array read through the box result's window. -/
theorem blk5_apply (A : Vec Ideal S5000x4 .f32) (t : Fin cfg0.N) (p : Fin 1000) (j : Fin 4) :
    ((cfg0.win 5).blk t).view.read (Elt Ideal) A (ix2 p j) = A (ix2 (rowOf t p) j) := by
  obtain ⟨-, -, -, -, -, -, -, -, -, -, e0, e1⟩ := idx_facts t
  show A (((cfg0.win 5).blk t).view.emb (ix2 p j)) = A (ix2 (rowOf t p) j)
  refine congrArg A (funext fun a => Fin.ext ?_)
  match a with
  | ⟨0, _⟩ => show win0_5.index t (0 : Fin 2) * 1000 + 1 * p.val = 1000 * t.val + p.val; omega
  | ⟨1, _⟩ => show win0_5.index t (1 : Fin 2) * 4 + 1 * j.val = j.val; omega

variable (m : (ℓ : Loc nD τ sig) → Buf (Elt Ideal) ℓ) (ρ : Dev nD → PrngReg)

/-! ## The four input blocks of tile `t`, as entries of the arguments -/

theorem iblk0_apply (c : Dev nD) (t : Fin cfg0.N) (p : Fin 1000) (k : Fin 4096) :
    (iblk m c 0 t : Vec Ideal S1000x4096 .f32) (ix2 p k) = m ((c : Thread nD τ).loc main_arg0) (ix2 (rowOf t p) k) := by
  unfold iblk
  refine (blk0_apply (V m c main_arg0) t p k).trans ?_
  rw [V_main_arg0]

theorem iblk1_apply (c : Dev nD) (t : Fin cfg0.N) (p : Fin 1000) (j : Fin 4) :
    (iblk m c 1 t : Vec Ideal S1000x4 .f32) (ix2 p j) = m ((c : Thread nD τ).loc main_arg1) (ix2 (rowOf t p) j) := by
  unfold iblk
  refine (blk1_apply (V m c main_arg1) t p j).trans ?_
  rw [V_main_arg1]

theorem iblk2_apply (c : Dev nD) (t : Fin cfg0.N) (k : Fin 4096) (q : Fin 85) :
    (iblk m c 2 t : Vec Ideal S4096x85 .f32) (ix2 k q) = panel (m ((c : Thread nD τ).loc main_arg2)) (m ((c : Thread nD τ).loc main_arg4)) (ix2 k q) := by
  unfold iblk
  refine (blk2_apply (V m c main_v1) t k q).trans ?_
  rw [V_panel]

theorem iblk3_apply (c : Dev nD) (t : Fin cfg0.N) (u : Fin 1) (q : Fin 85) :
    (iblk m c 3 t : Vec Ideal S1x85 .f32) (ix2 u q) = biasRow (m ((c : Thread nD τ).loc main_arg3)) (m ((c : Thread nD τ).loc main_arg5)) (ix2 u q) := by
  unfold iblk
  refine (blk3_apply (V m c main_v3) t u q).trans ?_
  rw [V_biasRow]

/-! ## What tile `t` writes back -/

/-- Tile `t` writes back rows `1000·t …` of the class scores of the arguments. -/
theorem flushed4_eq (c : Dev nD) (t : Fin cfg0.N) :
    (dats m 0 c).flushed 4 t
      = ((cfg0.win 4).blk t).view.read (Elt Ideal) (clsOut (m ((c : Thread nD τ).loc main_arg0)) (m ((c : Thread nD τ).loc main_arg2)) (m ((c : Thread nD τ).loc main_arg3))) := by
  rw [Value.flushed4]
  refine funext fun j => ?_
  obtain ⟨p, q, rfl⟩ : ∃ (p : Fin 1000) (q : Fin 81), j = ix2 p q := ⟨j 0, j 1, eq_ix2 j⟩
  refine Eq.trans ?_ (blk4_apply _ t p q).symm
  show out0_4 (iblk m c 0 t) (iblk m c 1 t) (iblk m c 2 t) (iblk m c 3 t) (ix2 p q) = _
  refine (clsStore_apply (iblk m c 0 t) (iblk m c 1 t) (iblk m c 2 t) (iblk m c 3 t) p q).trans ?_
  rw [clsOut_apply]
  unfold score
  refine congrArg₂ (· + ·) (Finset.sum_congr rfl fun k _ => ?_) ?_
  · rw [iblk0_apply, iblk2_apply, panel_cls _ _ k q (clsCol q) rfl]
  · rw [iblk3_apply, biasRow_cls _ _ q (clsCol q) rfl]

/-- Tile `t` writes back rows `1000·t …` of the decoded boxes of the arguments. -/
theorem flushed5_eq (c : Dev nD) (t : Fin cfg0.N) :
    (dats m 0 c).flushed 5 t
      = ((cfg0.win 5).blk t).view.read (Elt Ideal) (boxOut (m ((c : Thread nD τ).loc main_arg0)) (m ((c : Thread nD τ).loc main_arg1)) (m ((c : Thread nD τ).loc main_arg4)) (m ((c : Thread nD τ).loc main_arg5))) := by
  rw [Value.flushed5]
  refine funext fun j => ?_
  obtain ⟨p, q, rfl⟩ : ∃ (p : Fin 1000) (q : Fin 4), j = ix2 p q := ⟨j 0, j 1, eq_ix2 j⟩
  refine Eq.trans ?_ (blk5_apply _ t p q).symm
  show out0_5 (iblk m c 0 t) (iblk m c 1 t) (iblk m c 2 t) (iblk m c 3 t) (ix2 p q) = _
  refine (boxStore_apply (iblk m c 0 t) (iblk m c 1 t) (iblk m c 2 t) (iblk m c 3 t) p q).trans ?_
  rw [boxOut_apply, boxCol_eq_decode]
  refine congrArg₂ (fun d r => decode d r q) (funext fun j' => ?_) (funext fun j' => ?_)
  · unfold score
    refine congrArg₂ (· + ·) (Finset.sum_congr rfl fun k _ => ?_) ?_
    · rw [iblk0_apply, iblk2_apply, panel_reg _ _ k j' (regCol j') rfl]
    · rw [iblk3_apply, biasRow_reg _ _ j' (regCol j') rfl]
  · rw [iblk1_apply]

/-! ## The tiles cover the result arrays -/

theorem mem_blk4 (t : Fin cfg0.N) (i : S5000x81.Idx) :
    i ∈ ((cfg0.win 4).blk t).view.set ↔ ∀ a : Fin 2, win0_4.index t a * S1000x81.size a ≤ (i a).val ∧ (i a).val < win0_4.index t a * S1000x81.size a + S1000x81.size a := by
  show i ∈ ((View.whole main_v4_0).slice (win0_4.rect t)).set ↔ _
  rw [View.set_slice_whole, Rect.mem_set_unit]
  exact Iff.rfl

theorem mem_blk5 (t : Fin cfg0.N) (i : S5000x4.Idx) :
    i ∈ ((cfg0.win 5).blk t).view.set ↔ ∀ a : Fin 2, win0_5.index t a * S1000x4.size a ≤ (i a).val ∧ (i a).val < win0_5.index t a * S1000x4.size a + S1000x4.size a := by
  show i ∈ ((View.whole main_v4_1).slice (win0_5.rect t)).set ↔ _
  rw [View.set_slice_whole, Rect.mem_set_unit]
  exact Iff.rfl

/-- Row `r` of the class result lies in tile `r / 1000`. -/
theorem cover4 (i : S5000x81.Idx) : ∃ t : Fin cfg0.N, (cfg0.win 4).flush t = true ∧ i ∈ ((cfg0.win 4).blk t).view.set := by
  have hi0 : (i 0).val < 5000 := (i 0).isLt
  have hi1 : (i 1).val < 81 := (i 1).isLt
  have hN : (i 0).val / 1000 < cfg0.N := by rw [show cfg0.N = 5 from N_0]; omega
  obtain ⟨-, -, -, -, -, -, -, -, e0, e1, -⟩ := idx_facts ⟨(i 0).val / 1000, hN⟩
  refine ⟨⟨(i 0).val / 1000, hN⟩, flush0_4 _, ?_⟩
  rw [mem_blk4]
  intro a
  match a with
  | ⟨0, _⟩ =>
    show win0_4.index ⟨(i 0).val / 1000, hN⟩ (0 : Fin 2) * 1000 ≤ (i 0).val ∧ (i 0).val < win0_4.index ⟨(i 0).val / 1000, hN⟩ (0 : Fin 2) * 1000 + 1000
    rw [e0]
    show (i 0).val / 1000 * 1000 ≤ (i 0).val ∧ (i 0).val < (i 0).val / 1000 * 1000 + 1000
    omega
  | ⟨1, _⟩ =>
    show win0_4.index ⟨(i 0).val / 1000, hN⟩ (1 : Fin 2) * 81 ≤ (i 1).val ∧ (i 1).val < win0_4.index ⟨(i 0).val / 1000, hN⟩ (1 : Fin 2) * 81 + 81
    rw [e1]
    omega

/-- Row `r` of the box result lies in tile `r / 1000`. -/
theorem cover5 (i : S5000x4.Idx) : ∃ t : Fin cfg0.N, (cfg0.win 5).flush t = true ∧ i ∈ ((cfg0.win 5).blk t).view.set := by
  have hi0 : (i 0).val < 5000 := (i 0).isLt
  have hi1 : (i 1).val < 4 := (i 1).isLt
  have hN : (i 0).val / 1000 < cfg0.N := by rw [show cfg0.N = 5 from N_0]; omega
  obtain ⟨-, -, -, -, -, -, -, -, -, -, e0, e1⟩ := idx_facts ⟨(i 0).val / 1000, hN⟩
  refine ⟨⟨(i 0).val / 1000, hN⟩, flush0_5 _, ?_⟩
  rw [mem_blk5]
  intro a
  match a with
  | ⟨0, _⟩ =>
    show win0_5.index ⟨(i 0).val / 1000, hN⟩ (0 : Fin 2) * 1000 ≤ (i 0).val ∧ (i 0).val < win0_5.index ⟨(i 0).val / 1000, hN⟩ (0 : Fin 2) * 1000 + 1000
    rw [e0]
    show (i 0).val / 1000 * 1000 ≤ (i 0).val ∧ (i 0).val < (i 0).val / 1000 * 1000 + 1000
    omega
  | ⟨1, _⟩ =>
    show win0_5.index ⟨(i 0).val / 1000, hN⟩ (1 : Fin 2) * 4 ≤ (i 1).val ∧ (i 1).val < win0_5.index ⟨(i 0).val / 1000, hN⟩ (1 : Fin 2) * 4 + 4
    rw [e1]
    omega

/-! ## The result arrays after the run -/

/-- The class result ends holding the class scores of the arguments. -/
theorem final4 (c : Dev nD) :
    (dats m 0 c).arrAt 4 cfg0.N = clsOut (m ((c : Thread nD τ).loc main_arg0)) (m ((c : Thread nD τ).loc main_arg2)) (m ((c : Thread nD τ).loc main_arg3)) :=
  (dats m 0 c).arrAt_eq_of_cover 4 _ (fun t _ => flushed4_eq m c t) cover4

/-- The box result ends holding the decoded boxes of the arguments. -/
theorem final5 (c : Dev nD) :
    (dats m 0 c).arrAt 5 cfg0.N = boxOut (m ((c : Thread nD τ).loc main_arg0)) (m ((c : Thread nD τ).loc main_arg1)) (m ((c : Thread nD τ).loc main_arg4)) (m ((c : Thread nD τ).loc main_arg5)) :=
  (dats m 0 c).arrAt_eq_of_cover 5 _ (fun t _ => flushed5_eq m c t) cover5

/-- The program's run: both results at their functions of the arguments, the arguments unchanged. -/
theorem run : θ_run defs (onTc (τ := τ) (main (F := Ideal))) ⟨m, fun _ => 0, ρ⟩ fun r => ∀ c : Dev nD,
      r.2.mem ((c : Thread nD τ).loc main_v4_0) = clsOut (m ((c : Thread nD τ).loc main_arg0)) (m ((c : Thread nD τ).loc main_arg2)) (m ((c : Thread nD τ).loc main_arg3))
      ∧ r.2.mem ((c : Thread nD τ).loc main_v4_1) = boxOut (m ((c : Thread nD τ).loc main_arg0)) (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final4 m c), (h c).2.1.trans (final5 m c), (h c).2.2⟩)
    (Value.run_blocks m ρ)

end Cert.KernelIdeal.Hand

end
-- ==== Proof.RefValue.lean ====
/-
  The reference side of the value proof: the reference program's two results, read entry by entry, are the
  detection head (`Cert.Head.clsOut`, `Cert.Head.boxOut`).

  Entry (n, c) of the class result is the contraction of feature row n against classifier row c (the program
  contracts against the transposed weights, and entry (k, c) of the transpose is entry (c, k) of the weights), plus
  entry c of the bias (broadcast first to one row, then to every row).  The box result is built the same way from the
  4-row regressor, then cut into its four columns, combined column by column with the columns of the proposals, and
  the four resulting columns are laid side by side: entry (n, j) of the result is entry (n, 0) of column j.
-/
import proofs.«111709_g46712064311609_cont_8to1_c_116_27_alg».proof.Proof.Gen.ReferenceIdeal.Read
import proofs.«111709_g46712064311609_cont_8to1_c_116_27_alg».proof.Proof.HeadSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Head

/-! ## The class scores -/

/-- Entry (k, c) of the transposed classifier is entry (c, k) of the classifier. -/
theorem v0_at (x2 : (⟨S81x4096, .f32⟩ : BufTy).Contents (Elt Ideal)) (k : Fin 4096) (c : Fin 81) :
    val_main_v0 (F := Ideal) x2 (ix2 k c) = x2 (ix2 c k) :=
  (val_main_v0_apply x2 _).trans (congrArg x2 (funext fun a => by
    match a with
    | ⟨0, _⟩ => rfl
    | ⟨1, _⟩ => rfl))

/-- Entry (n, c) of the contraction: feature row n against classifier row c. -/
theorem v1_at (x0 : (⟨S5000x4096, .f32⟩ : BufTy).Contents (Elt Ideal)) (x2 : (⟨S81x4096, .f32⟩ : BufTy).Contents (Elt Ideal))
    (n : Fin 5000) (c : Fin 81) :
    val_main_v1 (F := Ideal) x0 x2 (ix2 n c) = ∑ k : Fin 4096, x0 (ix2 n k) * x2 (ix2 c k) := by
  refine (val_main_v1_apply x0 x2 _).trans (Finset.sum_congr rfl fun k _ => ?_)
  have hl : lidx_main_v1 (ix2 n c) k = ix2 n k := funext fun a => by
    match a with
    | ⟨0, _⟩ => rfl
    | ⟨1, _⟩ => rfl
  have hr : ridx_main_v1 (ix2 n c) k = ix2 k c := funext fun a => by
    match a with
    | ⟨0, _⟩ => rfl
    | ⟨1, _⟩ => rfl
  rw [hl, hr, v0_at]

/-- Entry (n, c) of the broadcast bias is entry c of the bias. -/
theorem v3_at (x3 : (⟨S81, .f32⟩ : BufTy).Contents (Elt Ideal)) (n : Fin 5000) (c : Fin 81) :
    val_main_v3 (F := Ideal) x3 (ix2 n c) = x3 (ix1 c) :=
  (val_main_v3_apply x3 _).trans ((val_main_v2_apply x3 _).trans (congrArg x3 (funext fun a => by
    match a with
    | ⟨0, _⟩ => rfl)))

/-- The reference's class output is the class scores. -/
theorem cls_eq (x0 : (⟨S5000x4096, .f32⟩ : BufTy).Contents (Elt Ideal)) (x2 : (⟨S81x4096, .f32⟩ : BufTy).Contents (Elt Ideal)) (x3 : (⟨S81, .f32⟩ : BufTy).Contents (Elt Ideal)) :
    val_main_v4 (F := Ideal) x0 x2 x3 = clsOut x0 x2 x3 := by
  funext i
  obtain ⟨n, c, rfl⟩ : ∃ (n : Fin 5000) (c : Fin 81), i = ix2 n c := ⟨i 0, i 1, eq_ix2 i⟩
  rw [clsOut_apply]
  refine (val_main_v4_apply x0 x2 x3 _).trans ?_
  rw [v1_at, v3_at]
  rfl

/-! ## The regressor scores -/

/-- Entry (k, j) of the transposed regressor is entry (j, k) of the regressor. -/
theorem v5_at (x4 : (⟨S4x4096, .f32⟩ : BufTy).Contents (Elt Ideal)) (k : Fin 4096) (j : Fin 4) :
    val_main_v5 (F := Ideal) x4 (ix2 k j) = x4 (ix2 j k) :=
  (val_main_v5_apply x4 _).trans (congrArg x4 (funext fun a => by
    match a with
    | ⟨0, _⟩ => rfl
    | ⟨1, _⟩ => rfl))

/-- Entry (n, j) of the contraction: feature row n against regressor row j. -/
theorem v6_at (x0 : (⟨S5000x4096, .f32⟩ : BufTy).Contents (Elt Ideal)) (x4 : (⟨S4x4096, .f32⟩ : BufTy).Contents (Elt Ideal))
    (n : Fin 5000) (j : Fin 4) :
    val_main_v6 (F := Ideal) x0 x4 (ix2 n j) = ∑ k : Fin 4096, x0 (ix2 n k) * x4 (ix2 j k) := by
  refine (val_main_v6_apply x0 x4 _).trans (Finset.sum_congr rfl fun k _ => ?_)
  have hl : lidx_main_v6 (ix2 n j) k = ix2 n k := funext fun a => by
    match a with
    | ⟨0, _⟩ => rfl
    | ⟨1, _⟩ => rfl
  have hr : ridx_main_v6 (ix2 n j) k = ix2 k j := funext fun a => by
    match a with
    | ⟨0, _⟩ => rfl
    | ⟨1, _⟩ => rfl
  rw [hl, hr, v5_at]

/-- Entry (n, j) of the broadcast bias is entry j of the bias. -/
theorem v8_at (x5 : (⟨S4, .f32⟩ : BufTy).Contents (Elt Ideal)) (n : Fin 5000) (j : Fin 4) :
    val_main_v8 (F := Ideal) x5 (ix2 n j) = x5 (ix1 j) :=
  (val_main_v8_apply x5 _).trans ((val_main_v7_apply x5 _).trans (congrArg x5 (funext fun a => by
    match a with
    | ⟨0, _⟩ => rfl)))

/-- Entry (n, j) of the regressor output is the score of row n against regressor row j. -/
theorem v9_at (x0 : (⟨S5000x4096, .f32⟩ : BufTy).Contents (Elt Ideal)) (x4 : (⟨S4x4096, .f32⟩ : BufTy).Contents (Elt Ideal))
    (x5 : (⟨S4, .f32⟩ : BufTy).Contents (Elt Ideal)) (n : Fin 5000) (j : Fin 4) :
    val_main_v9 (F := Ideal) x0 x4 x5 (ix2 n j) = score x0 x4 x5 n j := by
  refine (val_main_v9_apply x0 x4 x5 _).trans ?_
  rw [v6_at, v8_at]
  rfl

/-! ## The columns: a slice of width one, flattened to a row of length 5000, read at n, is the column at (n, ·) -/

/-- Column 0 of the regressor output at n. -/
theorem v11_at (x0 : (⟨S5000x4096, .f32⟩ : BufTy).Contents (Elt Ideal)) (x4 : (⟨S4x4096, .f32⟩ : BufTy).Contents (Elt Ideal))
    (x5 : (⟨S4, .f32⟩ : BufTy).Contents (Elt Ideal)) (n : Fin 5000) :
    val_main_v11 (F := Ideal) x0 x4 x5 (ix1 n) = score x0 x4 x5 n 0 := by
  refine (val_main_v11_apply x0 x4 x5 _).trans ((val_main_v10_apply x0 x4 x5 _).trans ?_)
  have h : idx_main_v10 (idx_main_v11 (ix1 n)) = ix2 n (0 : Fin 4) := funext fun a => Fin.ext (by
    match a with
    | ⟨0, _⟩ => exact Nat.div_one _
    | ⟨1, _⟩ => rfl)
  rw [h, v9_at]

/-- Column 1 of the regressor output at n. -/
theorem v19_at (x0 : (⟨S5000x4096, .f32⟩ : BufTy).Contents (Elt Ideal)) (x4 : (⟨S4x4096, .f32⟩ : BufTy).Contents (Elt Ideal))
    (x5 : (⟨S4, .f32⟩ : BufTy).Contents (Elt Ideal)) (n : Fin 5000) :
    val_main_v19 (F := Ideal) x0 x4 x5 (ix1 n) = score x0 x4 x5 n 1 := by
  refine (val_main_v19_apply x0 x4 x5 _).trans ((val_main_v18_apply x0 x4 x5 _).trans ?_)
  have h : idx_main_v18 (idx_main_v19 (ix1 n)) = ix2 n (1 : Fin 4) := funext fun a => Fin.ext (by
    match a with
    | ⟨0, _⟩ => exact Nat.div_one _
    | ⟨1, _⟩ => rfl)
  rw [h, v9_at]

/-- Column 2 of the regressor output at n (its first reading). -/
theorem v27_at (x0 : (⟨S5000x4096, .f32⟩ : BufTy).Contents (Elt Ideal)) (x4 : (⟨S4x4096, .f32⟩ : BufTy).Contents (Elt Ideal))
    (x5 : (⟨S4, .f32⟩ : BufTy).Contents (Elt Ideal)) (n : Fin 5000) :
    val_main_v27 (F := Ideal) x0 x4 x5 (ix1 n) = score x0 x4 x5 n 2 := by
  refine (val_main_v27_apply x0 x4 x5 _).trans ((val_main_v26_apply x0 x4 x5 _).trans ?_)
  have h : idx_main_v26 (idx_main_v27 (ix1 n)) = ix2 n (2 : Fin 4) := funext fun a => Fin.ext (by
    match a with
    | ⟨0, _⟩ => exact Nat.div_one _
    | ⟨1, _⟩ => rfl)
  rw [h, v9_at]

/-- Column 2 of the regressor output at n (its second reading). -/
theorem v33_at (x0 : (⟨S5000x4096, .f32⟩ : BufTy).Contents (Elt Ideal)) (x4 : (⟨S4x4096, .f32⟩ : BufTy).Contents (Elt Ideal))
    (x5 : (⟨S4, .f32⟩ : BufTy).Contents (Elt Ideal)) (n : Fin 5000) :
    val_main_v33 (F := Ideal) x0 x4 x5 (ix1 n) = score x0 x4 x5 n 2 := by
  refine (val_main_v33_apply x0 x4 x5 _).trans ((val_main_v32_apply x0 x4 x5 _).trans ?_)
  have h : idx_main_v32 (idx_main_v33 (ix1 n)) = ix2 n (2 : Fin 4) := funext fun a => Fin.ext (by
    match a with
    | ⟨0, _⟩ => exact Nat.div_one _
    | ⟨1, _⟩ => rfl)
  rw [h, v9_at]

/-- Column 2 of the proposals at n (the widths; first reading). -/
theorem v13_at (x1 : (⟨S5000x4, .f32⟩ : BufTy).Contents (Elt Ideal)) (n : Fin 5000) :
    val_main_v13 (F := Ideal) x1 (ix1 n) = x1 (ix2 n 2) :=
  (val_main_v13_apply x1 _).trans ((val_main_v12_apply x1 _).trans (congrArg x1 (funext fun a => Fin.ext (by
    match a with
    | ⟨0, _⟩ => exact Nat.div_one _
    | ⟨1, _⟩ => rfl))))

/-- Column 0 of the proposals at n. -/
theorem v16_at (x1 : (⟨S5000x4, .f32⟩ : BufTy).Contents (Elt Ideal)) (n : Fin 5000) :
    val_main_v16 (F := Ideal) x1 (ix1 n) = x1 (ix2 n 0) :=
  (val_main_v16_apply x1 _).trans ((val_main_v15_apply x1 _).trans (congrArg x1 (funext fun a => Fin.ext (by
    match a with
    | ⟨0, _⟩ => exact Nat.div_one _
    | ⟨1, _⟩ => rfl))))

/-- Column 3 of the proposals at n (the heights; first reading). -/
theorem v21_at (x1 : (⟨S5000x4, .f32⟩ : BufTy).Contents (Elt Ideal)) (n : Fin 5000) :
    val_main_v21 (F := Ideal) x1 (ix1 n) = x1 (ix2 n 3) :=
  (val_main_v21_apply x1 _).trans ((val_main_v20_apply x1 _).trans (congrArg x1 (funext fun a => Fin.ext (by
    match a with
    | ⟨0, _⟩ => exact Nat.div_one _
    | ⟨1, _⟩ => rfl))))

/-- Column 1 of the proposals at n. -/
theorem v24_at (x1 : (⟨S5000x4, .f32⟩ : BufTy).Contents (Elt Ideal)) (n : Fin 5000) :
    val_main_v24 (F := Ideal) x1 (ix1 n) = x1 (ix2 n 1) :=
  (val_main_v24_apply x1 _).trans ((val_main_v23_apply x1 _).trans (congrArg x1 (funext fun a => Fin.ext (by
    match a with
    | ⟨0, _⟩ => exact Nat.div_one _
    | ⟨1, _⟩ => rfl))))

/-- Column 2 of the proposals at n (second reading). -/
theorem v30_at (x1 : (⟨S5000x4, .f32⟩ : BufTy).Contents (Elt Ideal)) (n : Fin 5000) :
    val_main_v30 (F := Ideal) x1 (ix1 n) = x1 (ix2 n 2) :=
  (val_main_v30_apply x1 _).trans ((val_main_v29_apply x1 _).trans (congrArg x1 (funext fun a => Fin.ext (by
    match a with
    | ⟨0, _⟩ => exact Nat.div_one _
    | ⟨1, _⟩ => rfl))))

/-- Column 3 of the proposals at n (second reading). -/
theorem v36_at (x1 : (⟨S5000x4, .f32⟩ : BufTy).Contents (Elt Ideal)) (n : Fin 5000) :
    val_main_v36 (F := Ideal) x1 (ix1 n) = x1 (ix2 n 3) :=
  (val_main_v36_apply x1 _).trans ((val_main_v35_apply x1 _).trans (congrArg x1 (funext fun a => Fin.ext (by
    match a with
    | ⟨0, _⟩ => exact Nat.div_one _
    | ⟨1, _⟩ => rfl))))

/-! ## The four decoded columns -/

/-- The first decoded column at (n, 0): score 0 times the width plus the x offset. -/
theorem v38_at (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v38 (F := Ideal) x0 x1 x4 x5 (ix2 n (0 : Fin 1))
      = score x0 x4 x5 n 0 * x1 (ix2 n 2) + x1 (ix2 n 0) := by
  have h : idx_main_v38 (ix2 n (0 : Fin 1)) = ix1 n := funext fun a => by
    match a with
    | ⟨0, _⟩ => rfl
  refine (val_main_v38_apply x0 x1 x4 x5 _).trans ?_
  rw [h]
  refine (val_main_v17_apply x0 x1 x4 x5 _).trans ?_
  rw [val_main_v14_apply, v11_at, v13_at, v16_at]
  rfl

/-- The second decoded column at (n, 0): score 1 times the height plus the y offset. -/
theorem v39_at (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v39 (F := Ideal) x0 x1 x4 x5 (ix2 n (0 : Fin 1))
      = score x0 x4 x5 n 1 * x1 (ix2 n 3) + x1 (ix2 n 1) := by
  have h : idx_main_v39 (ix2 n (0 : Fin 1)) = ix1 n := funext fun a => by
    match a with
    | ⟨0, _⟩ => rfl
  refine (val_main_v39_apply x0 x1 x4 x5 _).trans ?_
  rw [h]
  refine (val_main_v25_apply x0 x1 x4 x5 _).trans ?_
  rw [val_main_v22_apply, v19_at, v21_at, v24_at]
  rfl

/-- The third decoded column at (n, 0): the exponential of score 2 times the width. -/
theorem v40_at (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v40 (F := Ideal) x0 x1 x4 x5 (ix2 n (0 : Fin 1))
      = Ideal.exp (score x0 x4 x5 n 2) * x1 (ix2 n 2) := by
  have h : idx_main_v40 (ix2 n (0 : Fin 1)) = ix1 n := funext fun a => by
    match a with
    | ⟨0, _⟩ => rfl
  refine (val_main_v40_apply x0 x1 x4 x5 _).trans ?_
  rw [h]
  refine (val_main_v31_apply x0 x1 x4 x5 _).trans ?_
  rw [val_main_v28_apply, v27_at, v30_at]
  rfl

/-- The fourth decoded column at (n, 0): the exponential of score 2 (again) times the height. -/
theorem v41_at (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v41 (F := Ideal) x0 x1 x4 x5 (ix2 n (0 : Fin 1))
      = Ideal.exp (score x0 x4 x5 n 2) * x1 (ix2 n 3) := by
  have h : idx_main_v41 (ix2 n (0 : Fin 1)) = ix1 n := funext fun a => by
    match a with
    | ⟨0, _⟩ => rfl
  refine (val_main_v41_apply x0 x1 x4 x5 _).trans ?_
  rw [h]
  refine (val_main_v37_apply x0 x1 x4 x5 _).trans ?_
  rw [val_main_v34_apply, v33_at, v36_at]
  rfl

/-! ## The four columns side by side

Four pieces of width one along axis 1: entry (n, j) of the result lies in piece j (the j pieces before it have total
width j), at (n, 0) of that piece. -/

/-- Entry (n, 0) of the result is entry (n, 0) of column 0. -/
theorem v42_at0 (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v42 (F := Ideal) x0 x1 x4 x5 (ix2 n (0 : Fin 4)) = val_main_v38 (F := Ideal) x0 x1 x4 x5 (ix2 n (0 : Fin 1)) := by
  unfold val_main_v42
  refine concatenate_apply_piece (t := S5000x4) (1 : Fin 2) _ _ (ix2 n (0 : Fin 4)) 0 ?_ S5000x1
    (val_main_v38 (F := Ideal) x0 x1 x4 x5) ?_ rfl 0 ?_ (ix2 n (0 : Fin 1)) ?_ ?_
  · show 0 < 4
    omega
  · rfl
  · rfl
  · intro b hb
    match b with
    | ⟨0, _⟩ => rfl
    | ⟨1, _⟩ => exact absurd rfl hb
  · rfl

/-- Entry (n, 1) of the result is entry (n, 0) of column 1. -/
theorem v42_at1 (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v42 (F := Ideal) x0 x1 x4 x5 (ix2 n (1 : Fin 4)) = val_main_v39 (F := Ideal) x0 x1 x4 x5 (ix2 n (0 : Fin 1)) := by
  unfold val_main_v42
  refine concatenate_apply_piece (t := S5000x4) (1 : Fin 2) _ _ (ix2 n (1 : Fin 4)) 1 ?_ S5000x1
    (val_main_v39 (F := Ideal) x0 x1 x4 x5) ?_ rfl 1 ?_ (ix2 n (0 : Fin 1)) ?_ ?_
  · show 1 < 4
    omega
  · rfl
  · rfl
  · intro b hb
    match b with
    | ⟨0, _⟩ => rfl
    | ⟨1, _⟩ => exact absurd rfl hb
  · rfl

/-- Entry (n, 2) of the result is entry (n, 0) of column 2. -/
theorem v42_at2 (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v42 (F := Ideal) x0 x1 x4 x5 (ix2 n (2 : Fin 4)) = val_main_v40 (F := Ideal) x0 x1 x4 x5 (ix2 n (0 : Fin 1)) := by
  unfold val_main_v42
  refine concatenate_apply_piece (t := S5000x4) (1 : Fin 2) _ _ (ix2 n (2 : Fin 4)) 2 ?_ S5000x1
    (val_main_v40 (F := Ideal) x0 x1 x4 x5) ?_ rfl 2 ?_ (ix2 n (0 : Fin 1)) ?_ ?_
  · show 2 < 4
    omega
  · rfl
  · rfl
  · intro b hb
    match b with
    | ⟨0, _⟩ => rfl
    | ⟨1, _⟩ => exact absurd rfl hb
  · rfl

/-- Entry (n, 3) of the result is entry (n, 0) of column 3. -/
theorem v42_at3 (x0 : (⟨S5000x4096, .f32⟩ : BufTy).Contents (Elt Ideal)) (x1 : (⟨S5000x4, .f32⟩ : BufTy).Contents (Elt Ideal))
    (x4 : (⟨S4x4096, .f32⟩ : BufTy).Contents (Elt Ideal)) (x5 : (⟨S4, .f32⟩ : BufTy).Contents (Elt Ideal)) (n : Fin 5000) :
    val_main_v42 (F := Ideal) x0 x1 x4 x5 (ix2 n (3 : Fin 4)) = val_main_v41 (F := Ideal) x0 x1 x4 x5 (ix2 n (0 : Fin 1)) := by
  unfold val_main_v42
  refine concatenate_apply_piece (t := S5000x4) (1 : Fin 2) _ _ (ix2 n (3 : Fin 4)) 3 ?_ S5000x1
    (val_main_v41 (F := Ideal) x0 x1 x4 x5) ?_ rfl 3 ?_ (ix2 n (0 : Fin 1)) ?_ ?_
  · show 3 < 4
    omega
  · rfl
  · rfl
  · intro b hb
    match b with
    | ⟨0, _⟩ => rfl
    | ⟨1, _⟩ => exact absurd rfl hb
  · rfl

/-- The reference's box output is the decoded boxes. -/
theorem box_eq (x0 : (⟨S5000x4096, .f32⟩ : BufTy).Contents (Elt Ideal)) (x1 : (⟨S5000x4, .f32⟩ : BufTy).Contents (Elt Ideal)) (x4 : (⟨S4x4096, .f32⟩ : BufTy).Contents (Elt Ideal)) (x5 : (⟨S4, .f32⟩ : BufTy).Contents (Elt Ideal)) :
    val_main_v42 (F := Ideal) x0 x1 x4 x5 = boxOut x0 x1 x4 x5 := by
  funext i
  obtain ⟨n, j, rfl⟩ : ∃ (n : Fin 5000) (j : Fin 4), i = ix2 n j := ⟨i 0, i 1, eq_ix2 i⟩
  rw [boxOut_apply]
  match j with
  | ⟨0, _⟩ => exact (v42_at0 x0 x1 x4 x5 n).trans (v38_at x0 x1 x4 x5 n)
  | ⟨1, _⟩ => exact (v42_at1 x0 x1 x4 x5 n).trans (v39_at x0 x1 x4 x5 n)
  | ⟨2, _⟩ => exact (v42_at2 x0 x1 x4 x5 n).trans (v40_at x0 x1 x4 x5 n)
  | ⟨3, _⟩ => exact (v42_at3 x0 x1 x4 x5 n).trans (v41_at x0 x1 x4 x5 n)
  | ⟨_ + 4, h⟩ => exact absurd h (by omega)

end Cert.ReferenceIdeal.RefValue

end
-- ==== Proof.lean ====
/-
  The fused detection head against its two-matmul reference, over the extended reals.

  Both programs compute, for every proposal row `n`, the class scores  (Σ_k f[n,k] · W_cls[c,k]) + b_cls[c]  and the four
  regressor scores  d_j = (Σ_k f[n,k] · W_reg[j,k]) + b_reg[j],  and decode the latter against the proposal row
  (x, y, w, h) into  (d₀·w + x, d₁·h + y, exp d₂ · w, exp d₂ · h)  (`Cert.Head.clsOut`, `Cert.Head.boxOut`).
  The tiled program contracts each 1000-row tile once against the classifier and regressor rows stacked into one
  85-column panel and splits the columns afterwards; the reference contracts twice and slices, flattens and re-joins
  columns. On extended reals a change of float format is the identity and the matrix unit's contraction is the plain
  sum, so the two sides are the SAME sums and products entry by entry: no law of arithmetic is used, only where each
  entry is read from, and the precondition is never opened.

  The tiled program's run with both results named is `Cert.KernelIdeal.Hand.run` (the generated run of the tiles, each
  tile's write-back read as rows of the specification, the five tiles covering the arrays); the reference's results are
  the generated run's stages, each read at an index (`Cert.ReferenceIdeal.RefValue.cls_eq`, `box_eq`). The three frames
  are the generated ones; no operation was rewritten by the idealization, so there is nothing to preserve.
-/
import proofs.«111709_g46712064311609_cont_8to1_c_116_27_alg».proof.Defs
import proofs.«111709_g46712064311609_cont_8to1_c_116_27_alg».proof.Proof.Gen.Kernel
import proofs.«111709_g46712064311609_cont_8to1_c_116_27_alg».proof.Proof.Gen.Kernel.Skeleton
import proofs.«111709_g46712064311609_cont_8to1_c_116_27_alg».proof.Proof.Gen.Kernel.Launch
import proofs.«111709_g46712064311609_cont_8to1_c_116_27_alg».proof.Proof.Gen.Kernel.Points
import proofs.«111709_g46712064311609_cont_8to1_c_116_27_alg».proof.Proof.Gen.Kernel.Frame
import proofs.«111709_g46712064311609_cont_8to1_c_116_27_alg».proof.Proof.Gen.KernelIdeal
import proofs.«111709_g46712064311609_cont_8to1_c_116_27_alg».proof.Proof.Gen.KernelIdeal.Skeleton
import proofs.«111709_g46712064311609_cont_8to1_c_116_27_alg».proof.Proof.Gen.KernelIdeal.Launch
import proofs.«111709_g46712064311609_cont_8to1_c_116_27_alg».proof.Proof.Gen.KernelIdeal.Points
import proofs.«111709_g46712064311609_cont_8to1_c_116_27_alg».proof.Proof.Gen.KernelIdeal.Frame
import proofs.«111709_g46712064311609_cont_8to1_c_116_27_alg».proof.Proof.Gen.ReferenceIdeal
import proofs.«111709_g46712064311609_cont_8to1_c_116_27_alg».proof.Proof.Gen.Pre_finite_inputs
import proofs.«111709_g46712064311609_cont_8to1_c_116_27_alg».proof.Proof.Gen.KernelIdeal.Value
import proofs.«111709_g46712064311609_cont_8to1_c_116_27_alg».proof.Proof.Gen.ReferenceIdeal.Run
import proofs.«111709_g46712064311609_cont_8to1_c_116_27_alg».proof.Proof.Gen.ReferenceIdeal.Read
import proofs.«111709_g46712064311609_cont_8to1_c_116_27_alg».proof.Proof.HeadSpec
import proofs.«111709_g46712064311609_cont_8to1_c_116_27_alg».proof.Proof.KernelBlocks
import proofs.«111709_g46712064311609_cont_8to1_c_116_27_alg».proof.Proof.RefValue
import Idealize.ShloMosaic.Adequacy
import Idealize.ShloMosaic.Init

noncomputable section

namespace Cert.Proof

open Idealize.ShloMosaic Idealize.SL.Sem Cert.Head

/-- The word-level program runs and leaves its arguments as they were. -/
theorem frame_k : Cert.frame_Kernel := fun m ρ _ => Cert.Kernel.Gen.frame m ρ

/-- So does the tiled program read over the extended reals. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the class scores and the decoded boxes of
    those arguments. -/
theorem algebraic : Cert.algebraic_KernelIdeal_ReferenceIdeal := by
  intro m ρ m' ρ' _ hagree
  refine ⟨fun c => clsOut (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => boxOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ?_) (Cert.ReferenceIdeal.Value.run (F := Ideal) m' ρ')
  obtain ⟨h4, h42, hrest⟩ := h c
  obtain ⟨a0, a1, a2, a3, a4, a5⟩ := hagree c
  refine ⟨?_, ?_, hrest⟩
  · rw [h4, Cert.ReferenceIdeal.Read.val_main_v4_eq, Cert.ReferenceIdeal.RefValue.cls_eq, a0, a2, a3]
  · rw [h42, Cert.ReferenceIdeal.Read.val_main_v42_eq, Cert.ReferenceIdeal.RefValue.box_eq, a0, a1, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
